-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1048576 : Shape := ⟨1, ![1048576]⟩
abbrev S64x64 : Shape := ⟨2, ![64, 64]⟩
abbrev S64 : Shape := ⟨1, ![64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S65536x64 .f32) (main_arg1 : IVec S1048576 32) (main_arg2 : IVec S1048576 32) (main_arg3 : FVec F S64x64 .f32) (main_arg4 : FVec F S64 .f32) (main_arg5 : FVec F S64x64 .f32) (main_arg6 : FVec F S64 .f32) (main_arg7 : FVec F S64 .f32) (main_arg8 : FVec F S64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S65536x64 : Shape := ⟨2, ![65536, 64]⟩
abbrev S1048576 : Shape := ⟨1, ![1048576]⟩
abbrev S64x64 : Shape := ⟨2, ![64, 64]⟩
abbrev S64 : Shape := ⟨1, ![64]⟩
abbrev S_ : Shape := ⟨0, ![]⟩
abbrev S65536 : Shape := ⟨1, ![65536]⟩
abbrev S1048576x1 : Shape := ⟨2, ![1048576, 1]⟩
abbrev S65536x1 : Shape := ⟨2, ![65536, 1]⟩
abbrev S1048576x64 : Shape := ⟨2, ![1048576, 64]⟩
abbrev S1x64 : Shape := ⟨2, ![1, 64]⟩
abbrev S4096x64 : Shape := ⟨2, ![4096, 64]⟩
abbrev S4096 : Shape := ⟨1, ![4096]⟩
abbrev S4096x1 : Shape := ⟨2, ![4096, 1]⟩

abbrev nBuf : Space → Nat
  | .hbm => 78
  | .vmem => 12
  | .smem => 0
  | _ => 0

abbrev bufTy : (tb : Table) → Fin (tcTables nBuf tb) → BufTy
  | .hbm, ⟨0, _⟩ => ⟨S65536x64, .f32⟩
  | .hbm, ⟨1, _⟩ => ⟨S1048576, .i32⟩
  | .hbm, ⟨2, _⟩ => ⟨S1048576, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S1048576, .f32⟩
  | .hbm, ⟨11, _⟩ => ⟨S_, .f32⟩
  | .hbm, ⟨12, _⟩ => ⟨S65536, .f32⟩
  | .hbm, ⟨13, _⟩ => ⟨S1048576x1, .i32⟩
  | .hbm, ⟨14, _⟩ => ⟨S65536, .f32⟩
  | .hbm, ⟨15, _⟩ => ⟨S_, .f32⟩
  | .hbm, ⟨16, _⟩ => ⟨S65536, .f32⟩
  | .hbm, ⟨17, _⟩ => ⟨S65536, .f32⟩
  | .hbm, ⟨18, _⟩ => ⟨S65536, .f32⟩
  | .hbm, ⟨19, _⟩ => ⟨S65536x1, .f32⟩
  | .hbm, ⟨20, _⟩ => ⟨S65536x64, .f32⟩
  | .hbm, ⟨21, _⟩ => ⟨S65536x64, .f32⟩
  | .hbm, ⟨22, _⟩ => ⟨S_, .i32⟩
  | .hbm, ⟨23, _⟩ => ⟨S1048576, .i32⟩
  | .hbm, ⟨24, _⟩ => ⟨S1048576, .i1⟩
  | .hbm, ⟨25, _⟩ => ⟨S_, .i32⟩
  | .hbm, ⟨26, _⟩ => ⟨S1048576, .i32⟩
  | .hbm, ⟨27, _⟩ => ⟨S1048576, .i32⟩
  | .hbm, ⟨28, _⟩ => ⟨S1048576, .i32⟩
  | .hbm, ⟨29, _⟩ => ⟨S1048576x1, .i32⟩
  | .hbm, ⟨30, _⟩ => ⟨S1048576x64, .f32⟩
  | .hbm, ⟨31, _⟩ => ⟨S_, .f32⟩
  | .hbm, ⟨32, _⟩ => ⟨S65536x64, .f32⟩
  | .hbm, ⟨33, _⟩ => ⟨S1048576x1, .i32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S65536x64, .f32⟩
  | .hbm, ⟨38, _⟩ => ⟨S65536x64, .f32⟩
  | .hbm, ⟨39, _⟩ => ⟨S_, .i32⟩
  | .hbm, ⟨40, _⟩ => ⟨S1048576, .i32⟩
  | .hbm, ⟨41, _⟩ => ⟨S1048576, .i1⟩
  | .hbm, ⟨42, _⟩ => ⟨S_, .i32⟩
  | .hbm, ⟨43, _⟩ => ⟨S1048576, .i32⟩
  | .hbm, ⟨44, _⟩ => ⟨S1048576, .i32⟩
  | .hbm, ⟨45, _⟩ => ⟨S1048576, .i32⟩
  | .hbm, ⟨46, _⟩ => ⟨S1048576x1, .i32⟩
  | .hbm, ⟨47, _⟩ => ⟨S1048576x64, .f32⟩
  | .hbm, ⟨48, _⟩ => ⟨S_, .f32⟩
  | .hbm, ⟨49, _⟩ => ⟨S65536x64, .f32⟩
  | .hbm, ⟨50, _⟩ => ⟨S1048576x1, .i32⟩
  | .hbm, ⟨51, _⟩ => ⟨S65536x64, .f32⟩
  | .hbm, ⟨52, _⟩ => ⟨S65536x64, .f32⟩
  | .hbm, ⟨53, _⟩ => ⟨S65536x64, .f32⟩
  | .hbm, ⟨54, _⟩ => ⟨S65536x64, .f32⟩
  | .hbm, ⟨55, _⟩ => ⟨S65536x64, .f32⟩
  | .hbm, ⟨56, _⟩ => ⟨S_, .i32⟩
  | .hbm, ⟨57, _⟩ => ⟨S1048576, .i32⟩
  | .hbm, ⟨58, _⟩ => ⟨S1048576, .i1⟩
  | .hbm, ⟨59, _⟩ => ⟨S_, .i32⟩
  | .hbm, ⟨60, _⟩ => ⟨S1048576, .i32⟩
  | .hbm, ⟨61, _⟩ => ⟨S1048576, .i32⟩
  | .hbm, ⟨62, _⟩ => ⟨S1048576, .i32⟩
  | .hbm, ⟨63, _⟩ => ⟨S1048576x1, .i32⟩
  | .hbm, ⟨64, _⟩ => ⟨S1048576x64, .f32⟩
  | .hbm, ⟨65, _⟩ => ⟨S_, .f32⟩
  | .hbm, ⟨66, _⟩ => ⟨S65536x64, .f32⟩
  | .hbm, ⟨67, _⟩ => ⟨S1048576x1, .i32⟩
  | .hbm, ⟨68, _⟩ => ⟨S65536x64, .f32⟩
  | .hbm, ⟨69, _⟩ => ⟨S65536x64, .f32⟩
  | .hbm, ⟨70, _⟩ => ⟨S65536x64, .f32⟩
  | .hbm, ⟨71, _⟩ => ⟨S64x64, .f32⟩
  | .hbm, ⟨72, _⟩ => ⟨S64x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S65536x64, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S1x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S4096x64, .f32⟩
  | .local _ .vmem, ⟨11, _⟩ => ⟨S4096x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1048576 : S_.BroadcastsInDim S1048576 (![] : Fin 0 → Fin S1048576.rank)
  bcast_S_S65536 : S_.BroadcastsInDim S65536 (![] : Fin 0 → Fin S65536.rank)
  bcast_S1048576_S1048576x1_0 : S1048576.BroadcastsInDim S1048576x1 (![0] : Fin 1 → Fin S1048576x1.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  bcast_S_S65536x64 : S_.BroadcastsInDim S65536x64 (![] : Fin 0 → Fin S65536x64.rank)
  transposes_S64x64_S64x64_1_0 : S64x64.Transposes [1, 0] S64x64
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  scatter_S65536_S1048576x1_S1048576_n_0_0_1_wf : ScatterDims.WF S65536 S1048576x1 S1048576 [] [0] [0] 1
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S65536x64.size a
  hwx0_1 : ∀ i : grid0.Coords, EltTy.bits .f32 = 32 ∨ (Rect.block (s := S65536x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x64.size a ≤ S65536x64.size a
  hwx0_8 : ∀ i : grid0.Coords, EltTy.bits .f32 = 32 ∨ (Rect.block (s := S65536x64) S4096x64.size (cc0_transform_8 i) (hinb0_8 i)).WholeWords (EltTy.packing .f32)

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v49) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v54) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v55) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v56) S4096x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x64 : Shape := ⟨2, ![65536, 64]⟩
abbrev S1048576 : Shape := ⟨1, ![1048576]⟩
abbrev S64x64 : Shape := ⟨2, ![64, 64]⟩
abbrev S64 : Shape := ⟨1, ![64]⟩
abbrev S_ : Shape := ⟨0, ![]⟩
abbrev S65536 : Shape := ⟨1, ![65536]⟩
abbrev S1048576x1 : Shape := ⟨2, ![1048576, 1]⟩
abbrev S65536x1 : Shape := ⟨2, ![65536, 1]⟩
abbrev S1048576x64 : Shape := ⟨2, ![1048576, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1048576, .i32⟩
  | .hbm, ⟨2, _⟩ => ⟨S1048576, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S1048576, .f32⟩
  | .hbm, ⟨11, _⟩ => ⟨S_, .f32⟩
  | .hbm, ⟨12, _⟩ => ⟨S65536, .f32⟩
  | .hbm, ⟨13, _⟩ => ⟨S1048576x1, .i32⟩
  | .hbm, ⟨14, _⟩ => ⟨S65536, .f32⟩
  | .hbm, ⟨15, _⟩ => ⟨S_, .f32⟩
  | .hbm, ⟨16, _⟩ => ⟨S65536, .f32⟩
  | .hbm, ⟨17, _⟩ => ⟨S65536, .f32⟩
  | .hbm, ⟨18, _⟩ => ⟨S65536, .f32⟩
  | .hbm, ⟨19, _⟩ => ⟨S65536x1, .f32⟩
  | .hbm, ⟨20, _⟩ => ⟨S65536x64, .f32⟩
  | .hbm, ⟨21, _⟩ => ⟨S65536x64, .f32⟩
  | .hbm, ⟨22, _⟩ => ⟨S_, .i32⟩
  | .hbm, ⟨23, _⟩ => ⟨S1048576, .i32⟩
  | .hbm, ⟨24, _⟩ => ⟨S1048576, .i1⟩
  | .hbm, ⟨25, _⟩ => ⟨S_, .i32⟩
  | .hbm, ⟨26, _⟩ => ⟨S1048576, .i32⟩
  | .hbm, ⟨27, _⟩ => ⟨S1048576, .i32⟩
  | .hbm, ⟨28, _⟩ => ⟨S1048576, .i32⟩
  | .hbm, ⟨29, _⟩ => ⟨S1048576x1, .i32⟩
  | .hbm, ⟨30, _⟩ => ⟨S1048576x64, .f32⟩
  | .hbm, ⟨31, _⟩ => ⟨S_, .f32⟩
  | .hbm, ⟨32, _⟩ => ⟨S65536x64, .f32⟩
  | .hbm, ⟨33, _⟩ => ⟨S1048576x1, .i32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S65536x64, .f32⟩
  | .hbm, ⟨38, _⟩ => ⟨S65536x64, .f32⟩
  | .hbm, ⟨39, _⟩ => ⟨S_, .i32⟩
  | .hbm, ⟨40, _⟩ => ⟨S1048576, .i32⟩
  | .hbm, ⟨41, _⟩ => ⟨S1048576, .i1⟩
  | .hbm, ⟨42, _⟩ => ⟨S_, .i32⟩
  | .hbm, ⟨43, _⟩ => ⟨S1048576, .i32⟩
  | .hbm, ⟨44, _⟩ => ⟨S1048576, .i32⟩
  | .hbm, ⟨45, _⟩ => ⟨S1048576, .i32⟩
  | .hbm, ⟨46, _⟩ => ⟨S1048576x1, .i32⟩
  | .hbm, ⟨47, _⟩ => ⟨S1048576x64, .f32⟩
  | .hbm, ⟨48, _⟩ => ⟨S_, .f32⟩
  | .hbm, ⟨49, _⟩ => ⟨S65536x64, .f32⟩
  | .hbm, ⟨50, _⟩ => ⟨S1048576x1, .i32⟩
  | .hbm, ⟨51, _⟩ => ⟨S65536x64, .f32⟩
  | .hbm, ⟨52, _⟩ => ⟨S65536x64, .f32⟩
  | .hbm, ⟨53, _⟩ => ⟨S65536x64, .f32⟩
  | .hbm, ⟨54, _⟩ => ⟨S65536x64, .f32⟩
  | .hbm, ⟨55, _⟩ => ⟨S65536x64, .f32⟩
  | .hbm, ⟨56, _⟩ => ⟨S_, .i32⟩
  | .hbm, ⟨57, _⟩ => ⟨S1048576, .i32⟩
  | .hbm, ⟨58, _⟩ => ⟨S1048576, .i1⟩
  | .hbm, ⟨59, _⟩ => ⟨S_, .i32⟩
  | .hbm, ⟨60, _⟩ => ⟨S1048576, .i32⟩
  | .hbm, ⟨61, _⟩ => ⟨S1048576, .i32⟩
  | .hbm, ⟨62, _⟩ => ⟨S1048576, .i32⟩
  | .hbm, ⟨63, _⟩ => ⟨S1048576x1, .i32⟩
  | .hbm, ⟨64, _⟩ => ⟨S1048576x64, .f32⟩
  | .hbm, ⟨65, _⟩ => ⟨S_, .f32⟩
  | .hbm, ⟨66, _⟩ => ⟨S65536x64, .f32⟩
  | .hbm, ⟨67, _⟩ => ⟨S1048576x1, .i32⟩
  | .hbm, ⟨68, _⟩ => ⟨S65536x64, .f32⟩
  | .hbm, ⟨69, _⟩ => ⟨S65536x64, .f32⟩
  | .hbm, ⟨70, _⟩ => ⟨S65536x64, .f32⟩
  | .hbm, ⟨71, _⟩ => ⟨S_, .f32⟩
  | .hbm, ⟨72, _⟩ => ⟨S65536, .f32⟩
  | .hbm, ⟨73, _⟩ => ⟨S65536x1, .f32⟩
  | .hbm, ⟨74, _⟩ => ⟨S_, .f32⟩
  | .hbm, ⟨75, _⟩ => ⟨S65536x1, .f32⟩
  | .hbm, ⟨76, _⟩ => ⟨S65536x1, .f32⟩
  | .hbm, ⟨77, _⟩ => ⟨S65536x64, .f32⟩
  | .hbm, ⟨78, _⟩ => ⟨S65536x64, .f32⟩
  | .hbm, ⟨79, _⟩ => ⟨S65536x64, .f32⟩
  | .hbm, ⟨80, _⟩ => ⟨S_, .f32⟩
  | .hbm, ⟨81, _⟩ => ⟨S65536, .f32⟩
  | .hbm, ⟨82, _⟩ => ⟨S65536x1, .f32⟩
  | .hbm, ⟨83, _⟩ => ⟨S_, .f32⟩
  | .hbm, ⟨84, _⟩ => ⟨S65536x1, .f32⟩
  | .hbm, ⟨85, _⟩ => ⟨S65536x1, .f32⟩
  | .hbm, ⟨86, _⟩ => ⟨S65536x64, .f32⟩
  | .hbm, ⟨87, _⟩ => ⟨S65536x64, .f32⟩
  | .hbm, ⟨88, _⟩ => ⟨S_, .f32⟩
  | .hbm, ⟨89, _⟩ => ⟨S65536x1, .f32⟩
  | .hbm, ⟨90, _⟩ => ⟨S65536x1, .f32⟩
  | .hbm, ⟨91, _⟩ => ⟨S65536x1, .f32⟩
  | .hbm, ⟨92, _⟩ => ⟨S65536x64, .f32⟩
  | .hbm, ⟨93, _⟩ => ⟨S65536x64, .f32⟩
  | .hbm, ⟨94, _⟩ => ⟨S1x64, .f32⟩
  | .hbm, ⟨95, _⟩ => ⟨S65536x64, .f32⟩
  | .hbm, ⟨96, _⟩ => ⟨S65536x64, .f32⟩
  | .hbm, ⟨97, _⟩ => ⟨S1x64, .f32⟩
  | .hbm, ⟨98, _⟩ => ⟨S65536x64, .f32⟩
  | .hbm, ⟨99, _⟩ => ⟨S65536x64, .f32⟩
  | .hbm, ⟨100, _⟩ => ⟨S64x64, .f32⟩
  | .hbm, ⟨101, _⟩ => ⟨S65536x64, .f32⟩
  | .hbm, ⟨102, _⟩ => ⟨S1x64, .f32⟩
  | .hbm, ⟨103, _⟩ => ⟨S65536x64, .f32⟩
  | .hbm, ⟨104, _⟩ => ⟨S65536x64, .f32⟩
  | .hbm, ⟨105, _⟩ => ⟨S_, .f32⟩
  | .hbm, ⟨106, _⟩ => ⟨S65536x64, .f32⟩
  | .hbm, ⟨107, _⟩ => ⟨S65536x64, .f32⟩
  | .hbm, ⟨108, _⟩ => ⟨S64x64, .f32⟩
  | .hbm, ⟨109, _⟩ => ⟨S65536x64, .f32⟩
  | .hbm, ⟨110, _⟩ => ⟨S1x64, .f32⟩
  | .hbm, ⟨111, _⟩ => ⟨S65536x64, .f32⟩
  | .hbm, ⟨112, _⟩ => ⟨S65536x64, .f32⟩
  | .hbm, ⟨113, _⟩ => ⟨S65536x64, .f32⟩
  | .hbm, ⟨114, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_call0_cst : Ref sig .tc := ⟨.hbm, 105, rfl⟩
abbrev main_call0_v0 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S_S65536 : S_.BroadcastsInDim S65536 (![] : Fin 0 → Fin S65536.rank)
  bcast_S1048576_S1048576x1_0 : S1048576.BroadcastsInDim S1048576x1 (![0] : Fin 1 → Fin S1048576x1.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  bcast_S_S65536x64 : S_.BroadcastsInDim S65536x64 (![] : Fin 0 → Fin S65536x64.rank)
  reducesTo_S65536x64_S65536_d1 : S65536x64.ReducesTo [1] S65536
  h_S_ : 0 < S_.numel
  bcast_S_S65536x1 : S_.BroadcastsInDim S65536x1 (![] : Fin 0 → Fin S65536x1.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  transposes_S64x64_S64x64_1_0 : S64x64.Transposes [1, 0] S64x64
  scatter_S65536_S1048576x1_S1048576_n_0_0_1_wf : ScatterDims.WF S65536 S1048576x1 S1048576 [] [0] [0] 1
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S65536x64_S64x64_S65536x64_1_0_0_1_n_n_wf : DotDims.WF S65536x64 S64x64 S65536x64 [1] [0] [0] [1] [] []

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf

class Facts : Prop extends Facts₀ where

variable [Facts]
-- ==== Proof.GridFacts.lean ====
/-
  The grid of the kernel's region.

  The grid has 16 points. Point `t` stages block `(t, 0)` of the propagated features and of the input features, block
  `(0, 0)` — the whole — of each parameter array, and writes back block `(t, 0)` of the result: rows
  `4096·t … 4096·t + 4095`.
-/
import proofs.«141005_j20667382628955_1_alg».proof.Proof.Gen.KernelIdeal.Frame
import Idealize.ShloMosaic.Lib.ValueIdx

noncomputable section

namespace Cert.GridFacts

open Cert.KernelIdeal Cert.KernelIdeal.Gen Idealize.ShloMosaic Idealize.ShloMosaic.TcCoe Idealize.SL.Sem Idealize.ShloMosaic.ValueIdx

theorem hz : (![0, 0] : Fin 2 → Nat) = fun _ => 0 := funext fun a => by fin_cases a <;> rfl

/-- The printed index maps, decided over the 16 points: the two row-blocked inputs and the output sit at block `(t, 0)`,
    every parameter array at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The array row that row `p` of point `t`'s block is. -/
def rowNo (t : Fin cfg0.N) (p : Fin 4096) : Fin 65536 :=
  ⟨t.val * 4096 + p.val, by have h := t.isLt; have hN : cfg0.N = 16 := N_0; have := p.isLt; omega⟩

end Cert.GridFacts

end
-- ==== Proof.EntryRst.lean ====
/-
  The propagated features as the kernel's region finds them.

  Before the region the host runs the graph propagation: the in-degrees by a scatter-add of ones, their inverse square
  roots (cut below at one), and three hops of scaling, gathering along the edge sources and scatter-adding into the edge
  destinations. The kernel's host operations and the reference's are the same, operation by operation, so the array the
  region finds is the reference's stage of the propagation, of the same three arguments.
-/
import proofs.«141005_j20667382628955_1_alg».proof.Proof.Gen.KernelIdeal.Frame
import proofs.«141005_j20667382628955_1_alg».proof.Proof.Gen.ReferenceIdeal.Read
import Idealize.ShloMosaic.Lib.StableHlo.Run

noncomputable section

namespace Cert.EntryRst

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

set_option maxRecDepth 16384 in
set_option maxHeartbeats 40000000 in
/-- The propagated features as the region finds them: the reference's stage of the propagation, of the same three
    arguments (the two programs run the same host operations up to here). -/
theorem rst : (V m c main_v49 : FVec Ideal S65536x64 .f32)
    = Cert.ReferenceIdeal.Read.val_main_v49 (F := Ideal) (m ((c : Thread nD τ).loc main_arg0))
        (m ((c : Thread nD τ).loc main_arg1)) (m ((c : Thread nD τ).loc main_arg2)) := by
  dsimp only [Gen.V, Gen.hostOps0]
  after_results_simp
  all_goals rfl

end Cert.EntryRst

end
-- ==== Proof.RowBlocks.lean ====
/-
  The row blocks a grid point stages and writes.

  Point `t` stages rows `4096·t … 4096·t + 4095` of the propagated features and of the input features and writes back the
  same rows of the result: entry `(p, l)` of the block is entry `(4096·t + p, l)` of the array, whatever the array holds.
-/
import proofs.«141005_j20667382628955_1_alg».proof.Proof.GridFacts
import proofs.«141005_j20667382628955_1_alg».proof.Proof.EntryRst

noncomputable section

namespace Cert.RowBlocks

open Cert.KernelIdeal Cert.KernelIdeal.Gen Idealize.ShloMosaic Idealize.ShloMosaic.TcCoe Idealize.SL.Sem Idealize.ShloMosaic.ValueIdx
open Cert.GridFacts

-- the propagated features enter only as a named array: nothing here depends on how the host computes them
attribute [local irreducible] Idealize.ShloMosaic.StableHlo.after

variable (m : (ℓ : Loc nD τ sig) → Buf (Elt Ideal) ℓ)

theorem emb_rows0 (t : Fin cfg0.N) (p : Fin 4096) (l : Fin 64) :
    ((cfg0.win 0).blk t).view.emb (ix2 p l) = ix2 (rowNo t p) l := by
  obtain ⟨e00, e01, -⟩ := idx_facts t
  funext a; apply Fin.ext
  match a with
  | ⟨0, _⟩ => show win0_0.index t (0 : Fin 2) * 4096 + 1 * p.val = t.val * 4096 + p.val; omega
  | ⟨1, _⟩ => show win0_0.index t (1 : Fin 2) * 64 + 1 * l.val = l.val; omega

theorem emb_rows1 (t : Fin cfg0.N) (p : Fin 4096) (l : Fin 64) :
    ((cfg0.win 1).blk t).view.emb (ix2 p l) = ix2 (rowNo t p) l := by
  obtain ⟨-, -, e10, e11, -⟩ := idx_facts t
  funext a; apply Fin.ext
  match a with
  | ⟨0, _⟩ => show win0_1.index t (0 : Fin 2) * 4096 + 1 * p.val = t.val * 4096 + p.val; omega
  | ⟨1, _⟩ => show win0_1.index t (1 : Fin 2) * 64 + 1 * l.val = l.val; omega

theorem emb_rows8 (t : Fin cfg0.N) (p : Fin 4096) (j : Fin 64) :
    ((cfg0.win 8).blk t).view.emb (ix2 p j) = ix2 (rowNo t p) j := by
  obtain ⟨-, -, -, -, -, -, -, -, -, -, -, -, -, -, -, -, e80, e81⟩ := idx_facts t
  funext a; apply Fin.ext
  match a with
  | ⟨0, _⟩ => show win0_8.index t (0 : Fin 2) * 4096 + 1 * p.val = t.val * 4096 + p.val; omega
  | ⟨1, _⟩ => show win0_8.index t (1 : Fin 2) * 64 + 1 * j.val = j.val; omega

/-! ## Any array read through a row block -/

theorem read0 (t : Fin cfg0.N) (R : FVec Ideal S65536x64 .f32) (p : Fin 4096) (l : Fin 64) :
    ((cfg0.win 0).blk t).view.read (Elt Ideal) R (ix2 p l) = R (ix2 (rowNo t p) l) := by
  rw [View.read_apply, emb_rows0 t p l]
  rfl

theorem read1 (t : Fin cfg0.N) (R : FVec Ideal S65536x64 .f32) (p : Fin 4096) (l : Fin 64) :
    ((cfg0.win 1).blk t).view.read (Elt Ideal) R (ix2 p l) = R (ix2 (rowNo t p) l) := by
  rw [View.read_apply, emb_rows1 t p l]
  rfl

theorem read8 (t : Fin cfg0.N) (R : FVec Ideal S65536x64 .f32) (p : Fin 4096) (j : Fin 64) :
    ((cfg0.win 8).blk t).view.read (Elt Ideal) R (ix2 p j) = R (ix2 (rowNo t p) j) := by
  rw [View.read_apply, emb_rows8 t p j]
  rfl

/-- What a write-back of the output's staging buffer writes is the buffer's contents: the window is not clipped. -/
theorem cut8 (t : Fin cfg0.N) (O : FVec Ideal S4096x64 .f32) (p : Fin 4096) (j : Fin 64) :
    (cfg0.win 8).cut (grid0.coords t) O (ix2 p j) = O (ix2 p j) := rfl

/-! ## The two staged row blocks -/

/-- Row `p` of the block of propagated features at point `t` is row `4096·t + p` of the propagated features. -/
theorem blk0_apply (c : Dev nD) (t : Fin cfg0.N) (p : Fin 4096) (l : Fin 64) :
    (iblk m c 0 t : FVec Ideal S4096x64 .f32) (ix2 p l)
      = Cert.ReferenceIdeal.Read.val_main_v49 (F := Ideal) (m ((c : Thread nD τ).loc main_arg0)) (m ((c : Thread nD τ).loc main_arg1))
          (m ((c : Thread nD τ).loc main_arg2)) (ix2 (rowNo t p) l) :=
  (congrArg (fun X : FVec Ideal S65536x64 .f32 => ((cfg0.win 0).blk t).view.read (Elt Ideal) X (ix2 p l)) (EntryRst.rst m c)).trans
    (read0 t _ p l)

/-- Row `p` of the block of input features at point `t` is row `4096·t + p` of the input features. -/
theorem blk1_apply (c : Dev nD) (t : Fin cfg0.N) (p : Fin 4096) (l : Fin 64) :
    (iblk m c 1 t : FVec Ideal S4096x64 .f32) (ix2 p l)
      = (m ((c : Thread nD τ).loc main_arg0) : FVec Ideal S65536x64 .f32) (ix2 (rowNo t p) l) :=
  (congrArg (fun X : FVec Ideal S65536x64 .f32 => ((cfg0.win 1).blk t).view.read (Elt Ideal) X (ix2 p l)) (V_main_arg0 m c)).trans
    (read1 t _ p l)

end Cert.RowBlocks

end
-- ==== Proof.EntryArrays.lean ====
/-
  The parameter arrays the kernel's region finds.

  Before the region the host transposes the two weight matrices and recasts the four parameter vectors as rows
  `[1, 64]`: the weights are read at the swapped index and the parameter rows at their one free coordinate.
-/
import proofs.«141005_j20667382628955_1_alg».proof.Proof.Gen.KernelIdeal.Frame
import Idealize.ShloMosaic.Lib.StableHlo.Run
import Idealize.ShloMosaic.Lib.ValueLayout

noncomputable section

namespace Cert.EntryArrays

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (c : Dev nD)

set_option maxHeartbeats 40000000 in
theorem w1t : (V m c main_v50 : FVec Ideal S64x64 .f32)
    = transpose S64x64 [1, 0] (m ((c : Thread nD τ).loc main_arg3)) transposes_S64x64_S64x64_1_0 := by
  dsimp only [Gen.V, Gen.hostOps0]
  after_results_simp
  all_goals rfl

set_option maxHeartbeats 40000000 in
theorem w2t : (V m c main_v51 : FVec Ideal S64x64 .f32)
    = transpose S64x64 [1, 0] (m ((c : Thread nD τ).loc main_arg5)) transposes_S64x64_S64x64_1_0 := by
  dsimp only [Gen.V, Gen.hostOps0]
  after_results_simp
  all_goals rfl

set_option maxHeartbeats 40000000 in
theorem gamma : (V m c main_v52 : FVec Ideal S1x64 .f32)
    = shapeCast S1x64 (m ((c : Thread nD τ).loc main_arg7)) shapeCasts_S64_S1x64 := by
  dsimp only [Gen.V, Gen.hostOps0]
  after_results_simp
  all_goals rfl

set_option maxHeartbeats 40000000 in
theorem beta : (V m c main_v53 : FVec Ideal S1x64 .f32)
    = shapeCast S1x64 (m ((c : Thread nD τ).loc main_arg8)) shapeCasts_S64_S1x64 := by
  dsimp only [Gen.V, Gen.hostOps0]
  after_results_simp
  all_goals rfl

set_option maxHeartbeats 40000000 in
theorem b1 : (V m c main_v54 : FVec Ideal S1x64 .f32)
    = shapeCast S1x64 (m ((c : Thread nD τ).loc main_arg4)) shapeCasts_S64_S1x64 := by
  dsimp only [Gen.V, Gen.hostOps0]
  after_results_simp
  all_goals rfl

set_option maxHeartbeats 40000000 in
theorem b2 : (V m c main_v55 : FVec Ideal S1x64 .f32)
    = shapeCast S1x64 (m ((c : Thread nD τ).loc main_arg6)) shapeCasts_S64_S1x64 := by
  dsimp only [Gen.V, Gen.hostOps0]
  after_results_simp
  all_goals rfl

/-! ## Read at an index -/

theorem w1t_apply (l k : Fin 64) :
    (V m c main_v50 : FVec Ideal S64x64 .f32) (ix2 l k) = m ((c : Thread nD τ).loc main_arg3) (ix2 k l) := by
  rw [w1t]; exact transpose_ix2_apply _ _ l k

theorem w2t_apply (k j : Fin 64) :
    (V m c main_v51 : FVec Ideal S64x64 .f32) (ix2 k j) = m ((c : Thread nD τ).loc main_arg5) (ix2 j k) := by
  rw [w2t]; exact transpose_ix2_apply _ _ k j

theorem gamma_apply (l : Fin 64) :
    (V m c main_v52 : FVec Ideal S1x64 .f32) (ix2 (0 : Fin 1) l) = m ((c : Thread nD τ).loc main_arg7) (ix1 l) := by
  rw [gamma]; exact shapeCast_a_1a_apply _ _ 0 l

theorem beta_apply (l : Fin 64) :
    (V m c main_v53 : FVec Ideal S1x64 .f32) (ix2 (0 : Fin 1) l) = m ((c : Thread nD τ).loc main_arg8) (ix1 l) := by
  rw [beta]; exact shapeCast_a_1a_apply _ _ 0 l

theorem b1_apply (l : Fin 64) :
    (V m c main_v54 : FVec Ideal S1x64 .f32) (ix2 (0 : Fin 1) l) = m ((c : Thread nD τ).loc main_arg4) (ix1 l) := by
  rw [b1]; exact shapeCast_a_1a_apply _ _ 0 l

theorem b2_apply (l : Fin 64) :
    (V m c main_v55 : FVec Ideal S1x64 .f32) (ix2 (0 : Fin 1) l) = m ((c : Thread nD τ).loc main_arg6) (ix1 l) := by
  rw [b2]; exact shapeCast_a_1a_apply _ _ 0 l

end Cert.EntryArrays

end
-- ==== Proof.ParamBlocks.lean ====
/-
  The parameter blocks a grid point stages.

  Each parameter array is staged whole at every point (block `(0, 0)`, as large as the array), so an entry of the block is
  the same entry of the array the region finds: the LayerNorm scale and shift and the two biases as rows `[1, 64]` of the
  parameter vectors, the two weight matrices transposed.
-/
import proofs.«141005_j20667382628955_1_alg».proof.Proof.GridFacts
import proofs.«141005_j20667382628955_1_alg».proof.Proof.EntryArrays

noncomputable section

namespace Cert.ParamBlocks

open Cert.KernelIdeal Cert.KernelIdeal.Gen Idealize.ShloMosaic Idealize.ShloMosaic.TcCoe Idealize.SL.Sem Idealize.ShloMosaic.ValueIdx
open Cert.GridFacts

variable (m : (ℓ : Loc nD τ sig) → Buf (Elt Ideal) ℓ)

theorem emb_vec2 (t : Fin cfg0.N) (l : Fin 64) : ((cfg0.win 2).blk t).view.emb (ix2 (0 : Fin 1) l) = ix2 (0 : Fin 1) l := by
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 64 + 1 * l.val = l.val; omega

theorem emb_vec3 (t : Fin cfg0.N) (l : Fin 64) : ((cfg0.win 3).blk t).view.emb (ix2 (0 : Fin 1) l) = ix2 (0 : Fin 1) l := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 64 + 1 * l.val = l.val; omega

theorem emb_mat4 (t : Fin cfg0.N) (a' b' : Fin 64) : ((cfg0.win 4).blk t).view.emb (ix2 a' b') = ix2 a' b' := by
  obtain ⟨-, -, -, -, -, -, -, -, e0, e1, -⟩ := idx_facts t
  funext a; apply Fin.ext
  match a with
  | ⟨0, _⟩ => show win0_4.index t (0 : Fin 2) * 64 + 1 * a'.val = a'.val; omega
  | ⟨1, _⟩ => show win0_4.index t (1 : Fin 2) * 64 + 1 * b'.val = b'.val; omega

theorem emb_vec5 (t : Fin cfg0.N) (l : Fin 64) : ((cfg0.win 5).blk t).view.emb (ix2 (0 : Fin 1) l) = ix2 (0 : Fin 1) l := by
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 64 + 1 * l.val = l.val; omega

theorem emb_mat6 (t : Fin cfg0.N) (a' b' : Fin 64) : ((cfg0.win 6).blk t).view.emb (ix2 a' b') = ix2 a' b' := by
  obtain ⟨-, -, -, -, -, -, -, -, -, -, -, -, e0, e1, -⟩ := idx_facts t
  funext a; apply Fin.ext
  match a with
  | ⟨0, _⟩ => show win0_6.index t (0 : Fin 2) * 64 + 1 * a'.val = a'.val; omega
  | ⟨1, _⟩ => show win0_6.index t (1 : Fin 2) * 64 + 1 * b'.val = b'.val; omega

theorem emb_vec7 (t : Fin cfg0.N) (l : Fin 64) : ((cfg0.win 7).blk t).view.emb (ix2 (0 : Fin 1) l) = ix2 (0 : Fin 1) l := by
  obtain ⟨-, -, -, -, -, -, -, -, -, -, -, -, -, -, e0, e1, -⟩ := idx_facts t
  funext a; apply Fin.ext
  match a with
  | ⟨0, _⟩ => show win0_7.index t (0 : Fin 2) * 1 + 1 * 0 = 0; omega
  | ⟨1, _⟩ => show win0_7.index t (1 : Fin 2) * 64 + 1 * l.val = l.val; omega

/-- Window 2's block at any point is the whole row array: its entry `l` is the parameter's entry `l`. -/
theorem blk2_apply (c : Dev nD) (t : Fin cfg0.N) (l : Fin 64) :
    (iblk m c 2 t : FVec Ideal S1x64 .f32) (ix2 (0 : Fin 1) l) = (m ((c : Thread nD τ).loc main_arg7) : FVec Ideal S64 .f32) (ix1 l) := by
  show (V m c main_v52 : FVec Ideal S1x64 .f32) (((cfg0.win 2).blk t).view.emb (ix2 (0 : Fin 1) l)) = _
  rw [emb_vec2 t l]
  exact EntryArrays.gamma_apply m c l

/-- Window 3's block at any point is the whole row array: its entry `l` is the parameter's entry `l`. -/
theorem blk3_apply (c : Dev nD) (t : Fin cfg0.N) (l : Fin 64) :
    (iblk m c 3 t : FVec Ideal S1x64 .f32) (ix2 (0 : Fin 1) l) = (m ((c : Thread nD τ).loc main_arg8) : FVec Ideal S64 .f32) (ix1 l) := by
  show (V m c main_v53 : FVec Ideal S1x64 .f32) (((cfg0.win 3).blk t).view.emb (ix2 (0 : Fin 1) l)) = _
  rw [emb_vec3 t l]
  exact EntryArrays.beta_apply m c l

/-- Window 4's block at any point is the whole transposed weight: its entry `(a, b)` is the weight's entry `(b, a)`. -/
theorem blk4_apply (c : Dev nD) (t : Fin cfg0.N) (a b : Fin 64) :
    (iblk m c 4 t : FVec Ideal S64x64 .f32) (ix2 a b) = (m ((c : Thread nD τ).loc main_arg3) : FVec Ideal S64x64 .f32) (ix2 b a) := by
  show (V m c main_v50 : FVec Ideal S64x64 .f32) (((cfg0.win 4).blk t).view.emb (ix2 a b)) = _
  rw [emb_mat4 t a b]
  exact EntryArrays.w1t_apply m c a b

/-- Window 5's block at any point is the whole row array: its entry `l` is the parameter's entry `l`. -/
theorem blk5_apply (c : Dev nD) (t : Fin cfg0.N) (l : Fin 64) :
    (iblk m c 5 t : FVec Ideal S1x64 .f32) (ix2 (0 : Fin 1) l) = (m ((c : Thread nD τ).loc main_arg4) : FVec Ideal S64 .f32) (ix1 l) := by
  show (V m c main_v54 : FVec Ideal S1x64 .f32) (((cfg0.win 5).blk t).view.emb (ix2 (0 : Fin 1) l)) = _
  rw [emb_vec5 t l]
  exact EntryArrays.b1_apply m c l

/-- Window 6's block at any point is the whole transposed weight: its entry `(a, b)` is the weight's entry `(b, a)`. -/
theorem blk6_apply (c : Dev nD) (t : Fin cfg0.N) (a b : Fin 64) :
    (iblk m c 6 t : FVec Ideal S64x64 .f32) (ix2 a b) = (m ((c : Thread nD τ).loc main_arg5) : FVec Ideal S64x64 .f32) (ix2 b a) := by
  show (V m c main_v51 : FVec Ideal S64x64 .f32) (((cfg0.win 6).blk t).view.emb (ix2 a b)) = _
  rw [emb_mat6 t a b]
  exact EntryArrays.w2t_apply m c a b

/-- Window 7's block at any point is the whole row array: its entry `l` is the parameter's entry `l`. -/
theorem blk7_apply (c : Dev nD) (t : Fin cfg0.N) (l : Fin 64) :
    (iblk m c 7 t : FVec Ideal S1x64 .f32) (ix2 (0 : Fin 1) l) = (m ((c : Thread nD τ).loc main_arg6) : FVec Ideal S64 .f32) (ix1 l) := by
  show (V m c main_v55 : FVec Ideal S1x64 .f32) (((cfg0.win 7).blk t).view.emb (ix2 (0 : Fin 1) l)) = _
  rw [emb_vec7 t l]
  exact EntryArrays.b2_apply m c l

end Cert.ParamBlocks

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.RowFfn.lean ====
/-
  One row of a position-wise feed-forward block with LayerNorm and two residuals, on the extended reals.

  For a row `x` of 64 entries: its mean is the sum of its entries over 64, its variance the sum of the squared
  centred entries over 64; LayerNorm scales the centred entry by `rsqrt (variance + ε)`, multiplies by `γ` and adds
  `β`. The hidden layer is `max (normed · W₁ + b₁) 0`, the block's value `hidden · W₂ + b₂ + x`, and the outer residual
  adds the row `f` of the block's input. `W₁ l k` and `W₂ k j` are the weights as the products read them (row index
  contracted). The float words of 64, ε and 0 are kept as words: both programs spell the same ones.
-/
import Idealize.ShloMosaic.PureOps.Ideal
import Idealize.ShloMosaic.Lib.ValueIdx

noncomputable section

open scoped BigOperators

namespace Cert.RowFfn

open Idealize.ShloMosaic

/-- The mean of a row of 64 entries: their sum over the word of 64. -/
def mean (x : Fin 64 → EReal) : EReal :=
  Ideal.div (∑ l : Fin 64, x l) (Ideal.ofBits .f32 0x42800000#32)

/-- The row's entry centred at the row's mean. -/
def centred (x : Fin 64 → EReal) (l : Fin 64) : EReal := x l - mean x

/-- The mean of the squared centred entries. -/
def variance (x : Fin 64 → EReal) : EReal :=
  Ideal.div (∑ l : Fin 64, centred x l * centred x l) (Ideal.ofBits .f32 0x42800000#32)

/-- LayerNorm of the row at entry `l`: centred, scaled by `rsqrt (variance + ε)`, then the affine map `γ`, `β`. -/
def normed (x γ β : Fin 64 → EReal) (l : Fin 64) : EReal :=
  centred x l * Ideal.rsqrt (variance x + Ideal.ofBits .f32 0x3727C5AC#32) * γ l + β l

/-- The hidden layer at unit `k`: the normalised row against column `k` of `W₁`, plus the bias, cut at zero. -/
def hidden (x γ β b₁ : Fin 64 → EReal) (W₁ : Fin 64 → Fin 64 → EReal) (k : Fin 64) : EReal :=
  max ((∑ l : Fin 64, normed x γ β l * W₁ l k) + b₁ k) (Ideal.ofBits .f32 0x00000000#32)

/-- The block's output at entry `j`: the hidden row against column `j` of `W₂`, plus the bias, plus the row itself (the
    inner residual), plus the row `f` of the block's input (the outer residual). -/
def out (x f γ β b₁ b₂ : Fin 64 → EReal) (W₁ W₂ : Fin 64 → Fin 64 → EReal) (j : Fin 64) : EReal :=
  (∑ k : Fin 64, hidden x γ β b₁ W₁ k * W₂ k j) + b₂ j + x j + f j

end Cert.RowFfn

end
-- ==== Proof.KernelRow.lean ====
/-
  The kernel body's value at one entry of its output block.

  The body loads a block `x0` of 4096 rows of the propagated features, the matching block `x1` of the input features,
  the LayerNorm scale and shift as rows `x2`, `x3`, the two weight matrices `x4`, `x6` (already transposed, so that the
  matrix unit contracts their first index) and the two biases as rows `x5`, `x7`. Its stored value at `(p, j)` depends on
  row `p` of `x0` and `x1` only, and is the feed-forward row function of that row: the lane sums are sums over the row,
  the kept-dimension casts and broadcasts read the row's own statistic, and each matrix product into the zero
  accumulator is the sum over the contracted index. Format changes are the identity on the extended reals.

  The body's arithmetic is restated stage by stage (mean column, centred block, variance column, normalised block,
  hidden block, output block), each stage read at an index, and the printed payloads are these stages once the
  identity casts are removed.
-/
import proofs.«141005_j20667382628955_1_alg».proof.Proof.Gen.KernelIdeal.Skeleton
import proofs.«141005_j20667382628955_1_alg».proof.Proof.LibColumnLayout
import proofs.«141005_j20667382628955_1_alg».proof.Proof.LibPlainMatmul
import proofs.«141005_j20667382628955_1_alg».proof.Proof.RowFfn
import Idealize.ShloMosaic.Lib.Pipeline.Value
import Idealize.ShloMosaic.Lib.ValueLayout

noncomputable section

open scoped BigOperators

namespace Cert.KernelRow

open Idealize.ShloMosaic Idealize.ShloMosaic.ValueIdx Idealize.ShloMosaic.ColumnLayout
open Cert.KernelIdeal Cert.KernelIdeal.Gen Cert.RowFfn

/-- The record of the body's two matrix products is the plain one: rows of the left against columns of the right. -/
theorem dot_eq_plain : dot_S4096x64_S64x64_S4096x64_1_0_0_1_n_n = DotDims.plain 4096 64 64 := rfl

/-- Row `p` of a loaded block. -/
abbrev rowOf (x : Vec Ideal S4096x64 .f32) (p : Fin 4096) : Fin 64 → EReal := fun l => x (ix2 p l)

/-- A loaded `[1, 64]` row as a function of its one free coordinate. -/
abbrev vecOf (v : Vec Ideal S1x64 .f32) : Fin 64 → EReal := fun l => v (ix2 (0 : Fin 1) l)

/-- A loaded `[64, 64]` matrix by its coordinates. -/
abbrev matOf (w : Vec Ideal S64x64 .f32) : Fin 64 → Fin 64 → EReal := fun a b => w (ix2 a b)

/-! ## The stages of the body -/

/-- The column of row means: lane sum, kept as a column, over the broadcast word of 64. -/
def meanCol (x0 : FVec Ideal S4096x64 .f32) : FVec Ideal S4096x1 .f32 :=
  divf (shapeCast S4096x1 (multiReduction .add [1] S4096 x0 0x00000000#32 reduces_S4096x64_S4096 (.inl rfl) rfl) shapeCasts_S4096_S4096x1)
    (broadcast S4096x1 (Scalar.ofBits .f32 0x42800000#32))

/-- The block with each row centred at its mean. -/
def centredBlk (x0 : FVec Ideal S4096x64 .f32) : FVec Ideal S4096x64 .f32 :=
  subf x0 (broadcastTo S4096x64 (meanCol x0) broadcasts_S4096x1_S4096x64)

/-- The column of row variances. -/
def varCol (x0 : FVec Ideal S4096x64 .f32) : FVec Ideal S4096x1 .f32 :=
  divf (shapeCast S4096x1 (multiReduction .add [1] S4096 (mulf (centredBlk x0) (centredBlk x0)) 0x00000000#32 reduces_S4096x64_S4096 (.inl rfl) rfl) shapeCasts_S4096_S4096x1)
    (broadcast S4096x1 (Scalar.ofBits .f32 0x42800000#32))

/-- The LayerNorm of every row. -/
def normedBlk (x0 : FVec Ideal S4096x64 .f32) (x2 x3 : FVec Ideal S1x64 .f32) : FVec Ideal S4096x64 .f32 :=
  addf (mulf (mulf (centredBlk x0)
      (broadcastTo S4096x64 (rsqrt (addf (varCol x0) (broadcast S4096x1 (Scalar.ofBits .f32 0x3727C5AC#32)))) broadcasts_S4096x1_S4096x64))
      (broadcastTo S4096x64 x2 broadcasts_S1x64_S4096x64))
    (broadcastTo S4096x64 x3 broadcasts_S1x64_S4096x64)

/-- The hidden layer of every row. -/
def hiddenBlk (x0 : FVec Ideal S4096x64 .f32) (x2 x3 : FVec Ideal S1x64 .f32) (x4 : FVec Ideal S64x64 .f32) (x5 : FVec Ideal S1x64 .f32) :
    FVec Ideal S4096x64 .f32 :=
  maximumf (addf (matmul dot_S4096x64_S64x64_S4096x64_1_0_0_1_n_n none (normedBlk x0 x2 x3) x4 (constant S4096x64 .f32 0x00000000#32))
      (broadcastTo S4096x64 x5 broadcasts_S1x64_S4096x64))
    (broadcast S4096x64 (Scalar.ofBits .f32 0x00000000#32))

/-- The stored block. -/
def outBlk (x0 x1 : FVec Ideal S4096x64 .f32) (x2 x3 : FVec Ideal S1x64 .f32) (x4 : FVec Ideal S64x64 .f32) (x5 : FVec Ideal S1x64 .f32)
    (x6 : FVec Ideal S64x64 .f32) (x7 : FVec Ideal S1x64 .f32) : FVec Ideal S4096x64 .f32 :=
  addf (addf (addf (matmul dot_S4096x64_S64x64_S4096x64_1_0_0_1_n_n none (hiddenBlk x0 x2 x3 x4 x5) x6 (constant S4096x64 .f32 0x00000000#32))
      (broadcastTo S4096x64 x7 broadcasts_S1x64_S4096x64)) x0) x1

/-! ## Each stage at an index -/

theorem meanCol_apply (x0 : FVec Ideal S4096x64 .f32) (p : Fin 4096) (u : Fin 1) :
    meanCol x0 (ix2 p u) = mean (rowOf x0 p) := by
  unfold meanCol
  show Ideal.div (shapeCast S4096x1 _ shapeCasts_S4096_S4096x1 (ix2 p u)) _ = _
  rw [shapeCast_a_a1_apply]
  exact congrArg (Ideal.div · _) (rowSum_apply x0 reduces_S4096x64_S4096 (.inl rfl) rfl p)

theorem centredBlk_apply (x0 : FVec Ideal S4096x64 .f32) (p : Fin 4096) (l : Fin 64) :
    centredBlk x0 (ix2 p l) = centred (rowOf x0 p) l := by
  unfold centredBlk
  show x0 (ix2 p l) - broadcastTo S4096x64 (meanCol x0) broadcasts_S4096x1_S4096x64 (ix2 p l) = _
  rw [broadcastTo_a1_ab_apply, meanCol_apply]
  rfl

theorem varCol_apply (x0 : FVec Ideal S4096x64 .f32) (p : Fin 4096) (u : Fin 1) :
    varCol x0 (ix2 p u) = variance (rowOf x0 p) := by
  unfold varCol
  show Ideal.div (shapeCast S4096x1 _ shapeCasts_S4096_S4096x1 (ix2 p u)) _ = _
  rw [shapeCast_a_a1_apply]
  unfold variance
  refine congrArg (Ideal.div · _) ((rowSum_apply (mulf (centredBlk x0) (centredBlk x0)) reduces_S4096x64_S4096 (.inl rfl) rfl p).trans
    (Finset.sum_congr rfl fun l _ => ?_))
  show centredBlk x0 (ix2 p l) * centredBlk x0 (ix2 p l) = _
  rw [centredBlk_apply]

theorem normedBlk_apply (x0 : FVec Ideal S4096x64 .f32) (x2 x3 : FVec Ideal S1x64 .f32) (p : Fin 4096) (l : Fin 64) :
    normedBlk x0 x2 x3 (ix2 p l) = normed (rowOf x0 p) (vecOf x2) (vecOf x3) l := by
  unfold normedBlk
  show centredBlk x0 (ix2 p l)
        * broadcastTo S4096x64 (rsqrt (addf (varCol x0) (broadcast S4096x1 (Scalar.ofBits .f32 0x3727C5AC#32)))) broadcasts_S4096x1_S4096x64 (ix2 p l)
        * broadcastTo S4096x64 x2 broadcasts_S1x64_S4096x64 (ix2 p l)
      + broadcastTo S4096x64 x3 broadcasts_S1x64_S4096x64 (ix2 p l) = _
  rw [broadcastTo_a1_ab_apply, broadcastTo_1b_ab_apply, broadcastTo_1b_ab_apply, centredBlk_apply]
  show _ * Ideal.rsqrt (varCol x0 (ix2 p (0 : Fin 1)) + _) * _ + _ = _
  rw [varCol_apply]
  rfl

theorem hiddenBlk_apply (x0 : FVec Ideal S4096x64 .f32) (x2 x3 : FVec Ideal S1x64 .f32) (x4 : FVec Ideal S64x64 .f32) (x5 : FVec Ideal S1x64 .f32)
    (p : Fin 4096) (k : Fin 64) :
    hiddenBlk x0 x2 x3 x4 x5 (ix2 p k) = RowFfn.hidden (rowOf x0 p) (vecOf x2) (vecOf x3) (vecOf x5) (matOf x4) k := by
  unfold hiddenBlk
  show max (FloatOps.matmul dot_S4096x64_S64x64_S4096x64_1_0_0_1_n_n none (normedBlk x0 x2 x3) x4 (constant S4096x64 .f32 0x00000000#32) (ix2 p k)
        + broadcastTo S4096x64 x5 broadcasts_S1x64_S4096x64 (ix2 p k)) _ = _
  rw [dot_eq_plain, PlainMatmul.matmul_zero_apply, broadcastTo_1b_ab_apply]
  unfold RowFfn.hidden
  refine congrArg (max · _) (congrArg (· + _) (Finset.sum_congr rfl fun l _ => ?_))
  rw [normedBlk_apply]

theorem outBlk_apply (x0 x1 : FVec Ideal S4096x64 .f32) (x2 x3 : FVec Ideal S1x64 .f32) (x4 : FVec Ideal S64x64 .f32) (x5 : FVec Ideal S1x64 .f32)
    (x6 : FVec Ideal S64x64 .f32) (x7 : FVec Ideal S1x64 .f32) (p : Fin 4096) (j : Fin 64) :
    outBlk x0 x1 x2 x3 x4 x5 x6 x7 (ix2 p j)
      = out (rowOf x0 p) (rowOf x1 p) (vecOf x2) (vecOf x3) (vecOf x5) (vecOf x7) (matOf x4) (matOf x6) j := by
  unfold outBlk
  show FloatOps.matmul dot_S4096x64_S64x64_S4096x64_1_0_0_1_n_n none (hiddenBlk x0 x2 x3 x4 x5) x6 (constant S4096x64 .f32 0x00000000#32) (ix2 p j)
        + broadcastTo S4096x64 x7 broadcasts_S1x64_S4096x64 (ix2 p j) + x0 (ix2 p j) + x1 (ix2 p j) = _
  rw [dot_eq_plain, PlainMatmul.matmul_zero_apply, broadcastTo_1b_ab_apply]
  unfold out
  refine congrArg (· + _ + _ + _) (Finset.sum_congr rfl fun k _ => ?_)
  rw [hiddenBlk_apply]

/-! ## The printed payloads are these stages -/

/-- The stored payload of the body, over its eight loaded blocks, is the output block of the stages: the printed text
    differs by identity casts and by format changes, which are the identity on the extended reals. -/
theorem pay_eq (x0 x1 : Vec Ideal S4096x64 .f32) (x2 x3 : Vec Ideal S1x64 .f32) (x4 : Vec Ideal S64x64 .f32) (x5 : Vec Ideal S1x64 .f32)
    (x6 : Vec Ideal S64x64 .f32) (x7 : Vec Ideal S1x64 .f32) :
    k0_pay1 (k0_pay2 x0) (k0_pay3 x0 x2 x3 x4 x5) x6 x7 x1 = outBlk x0 x1 x2 x3 x4 x5 x6 x7 := by
  unfold k0_pay1 k0_pay3 k0_pay2
  simp only [shapeCast_self]
  rfl

end Cert.KernelRow

end
-- ==== Proof.WholeResult.lean ====
/-
  The block's whole result as one function of the arrays it reads.

  Entry `(n, j)` of the result is the feed-forward row function of row `n` of the propagated features `R` and of the input
  features `x0`, with the parameter vectors read by their coordinate and the weights at the swapped index (both programs
  contract the transposed weights).
-/
import proofs.«141005_j20667382628955_1_alg».proof.Proof.RowFfn

noncomputable section

namespace Cert.WholeResult

open Idealize.ShloMosaic Idealize.ShloMosaic.ValueIdx Cert.RowFfn

/-- The result array: row by row, the feed-forward row function. -/
def whole (R x0 : (⟨2, ![65536, 64]⟩ : Shape).Idx → EReal) (x3 x5 : (⟨2, ![64, 64]⟩ : Shape).Idx → EReal)
    (x4 x6 x7 x8 : (⟨1, ![64]⟩ : Shape).Idx → EReal) : (⟨2, ![65536, 64]⟩ : Shape).Idx → EReal :=
  fun i => out (fun l => R (ix2 (i 0) l)) (fun l => x0 (ix2 (i 0) l)) (fun l => x7 (ix1 l)) (fun l => x8 (ix1 l))
    (fun l => x4 (ix1 l)) (fun l => x6 (ix1 l)) (fun a b => x3 (ix2 b a)) (fun a b => x5 (ix2 b a)) (i 1)

end Cert.WholeResult

end
-- ==== Proof.BlockEntry.lean ====
/-
  One entry of a written block against the whole-array function.

  If row `p` of the two row-blocked inputs is row `n` of their arrays, the parameter rows are the parameter vectors and
  the weight blocks are the weights at the swapped index, then entry `(p, j)` of the body's output block is entry `(n, j)`
  of the whole-array function.
-/
import proofs.«141005_j20667382628955_1_alg».proof.Proof.KernelRow
import proofs.«141005_j20667382628955_1_alg».proof.Proof.WholeResult

noncomputable section

namespace Cert.BlockEntry

open Idealize.ShloMosaic Idealize.ShloMosaic.ValueIdx Cert.KernelIdeal

theorem block_entry_of (R A0 : FVec Ideal S65536x64 .f32) (a3 a5 : FVec Ideal S64x64 .f32) (a4 a6 a7 a8 : FVec Ideal S64 .f32)
    (x0 x1 : FVec Ideal S4096x64 .f32) (x2 x3 : FVec Ideal S1x64 .f32) (x4 : FVec Ideal S64x64 .f32) (x5 : FVec Ideal S1x64 .f32)
    (x6 : FVec Ideal S64x64 .f32) (x7 : FVec Ideal S1x64 .f32) (n : Fin 65536) (p : Fin 4096) (j : Fin 64)
    (h0 : ∀ l : Fin 64, x0 (ix2 p l) = R (ix2 n l)) (h1 : ∀ l : Fin 64, x1 (ix2 p l) = A0 (ix2 n l))
    (h2 : ∀ l : Fin 64, x2 (ix2 (0 : Fin 1) l) = a7 (ix1 l)) (h3 : ∀ l : Fin 64, x3 (ix2 (0 : Fin 1) l) = a8 (ix1 l))
    (h4 : ∀ a b : Fin 64, x4 (ix2 a b) = a3 (ix2 b a)) (h5 : ∀ l : Fin 64, x5 (ix2 (0 : Fin 1) l) = a4 (ix1 l))
    (h6 : ∀ a b : Fin 64, x6 (ix2 a b) = a5 (ix2 b a)) (h7 : ∀ l : Fin 64, x7 (ix2 (0 : Fin 1) l) = a6 (ix1 l)) :
    KernelRow.outBlk x0 x1 x2 x3 x4 x5 x6 x7 (ix2 p j) = Cert.WholeResult.whole R A0 a3 a5 a4 a6 a7 a8 (ix2 n j) := by
  refine (KernelRow.outBlk_apply x0 x1 x2 x3 x4 x5 x6 x7 p j).trans ?_
  have e0 : KernelRow.rowOf x0 p = fun l => R (ix2 n l) := funext h0
  have e1 : KernelRow.rowOf x1 p = fun l => A0 (ix2 n l) := funext h1
  have e2 : KernelRow.vecOf x2 = fun l => a7 (ix1 l) := funext h2
  have e3 : KernelRow.vecOf x3 = fun l => a8 (ix1 l) := funext h3
  have e4 : KernelRow.matOf x4 = fun a b => a3 (ix2 b a) := funext fun a => funext fun b => h4 a b
  have e5 : KernelRow.vecOf x5 = fun l => a4 (ix1 l) := funext h5
  have e6 : KernelRow.matOf x6 = fun a b => a5 (ix2 b a) := funext fun a => funext fun b => h6 a b
  have e7 : KernelRow.vecOf x7 = fun l => a6 (ix1 l) := funext h7
  rw [e0, e1, e2, e3, e4, e5, e6, e7]
  rfl

end Cert.BlockEntry

end
-- ==== Proof.ArrayValue.lean ====
/-
  The kernel's result array after the run.

  Row `p` of the block point `t` writes is row `4096·t + p` of the whole-array function (the blocks the point staged are
  those rows of the inputs and the whole parameter arrays), and every row of the array is in the block of point
  `row / 4096`: the array ends holding that function. The second result is the propagated features themselves, which the
  region only reads.
-/
import proofs.«141005_j20667382628955_1_alg».proof.Proof.Gen.KernelIdeal.Value
import proofs.«141005_j20667382628955_1_alg».proof.Proof.RowBlocks
import proofs.«141005_j20667382628955_1_alg».proof.Proof.ParamBlocks
import proofs.«141005_j20667382628955_1_alg».proof.Proof.BlockEntry

noncomputable section

namespace Cert.ArrayValue

open Cert.KernelIdeal Cert.KernelIdeal.Gen Idealize.ShloMosaic Idealize.ShloMosaic.TcCoe Idealize.SL.Sem Idealize.ShloMosaic.ValueIdx
open Idealize.ShloMosaic.Pipeline (Dat)
open Cert.GridFacts

-- the propagated features enter only as a named array: nothing here depends on how the host computes them
attribute [local irreducible] Idealize.ShloMosaic.StableHlo.after

variable (m : (ℓ : Loc nD τ sig) → Buf (Elt Ideal) ℓ) (ρ : Dev nD → PrngReg)

/-- The result array as one function of the argument arrays: the whole-array function over the propagated features as
    the reference's stage spells them (the host operations before the region are the same). -/
def result (c : Dev nD) : FVec Ideal S65536x64 .f32 :=
  Cert.WholeResult.whole (Cert.ReferenceIdeal.Read.val_main_v49 (F := Ideal) (m ((c : Thread nD τ).loc main_arg0)) (m ((c : Thread nD τ).loc main_arg1)) (m ((c : Thread nD τ).loc main_arg2))) (m ((c : Thread nD τ).loc main_arg0)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8))

/-- What point `t` writes back, as the stages of the body over the blocks the point staged. -/
theorem flushed_stages (c : Dev nD) (t : Fin cfg0.N) :
    (dats m 0 c).flushed 8 t = (cfg0.win 8).cut (grid0.coords t) (KernelRow.outBlk (iblk m c 0 t) (iblk m c 1 t) (iblk m c 2 t) (iblk m c 3 t) (iblk m c 4 t) (iblk m c 5 t) (iblk m c 6 t) (iblk m c 7 t)) := by
  rw [Cert.KernelIdeal.Value.flushed8]
  unfold out0_8
  rw [View.canon_unit_zero hz]
  simp only [View.ld_unit_zero (S := S4096x64) hz, View.ld_unit_zero (S := S1x64) hz, View.ld_unit_zero (S := S64x64) hz]
  rw [KernelRow.pay_eq (iblk m c 0 t) (iblk m c 1 t) (iblk m c 2 t) (iblk m c 3 t) (iblk m c 4 t) (iblk m c 5 t) (iblk m c 6 t) (iblk m c 7 t)]

/-- WHAT POINT `t` WRITES BACK is block `t` of the result function. -/
theorem flushed_eq (c : Dev nD) (t : Fin cfg0.N) :
    (dats m 0 c).flushed 8 t = ((cfg0.win 8).blk t).view.read (Elt Ideal) (result m c) := by
  rw [flushed_stages]
  funext y
  obtain ⟨p, j, rfl⟩ : ∃ (p : Fin 4096) (j : Fin 64), y = ix2 p j := ⟨y 0, y 1, eq_ix2 y⟩
  refine (RowBlocks.cut8 t (KernelRow.outBlk (iblk m c 0 t) (iblk m c 1 t) (iblk m c 2 t) (iblk m c 3 t) (iblk m c 4 t) (iblk m c 5 t) (iblk m c 6 t) (iblk m c 7 t)) p j).trans ?_
  refine Eq.trans ?_ (RowBlocks.read8 t (result m c) p j).symm
  exact Cert.BlockEntry.block_entry_of (Cert.ReferenceIdeal.Read.val_main_v49 (F := Ideal) (m ((c : Thread nD τ).loc main_arg0)) (m ((c : Thread nD τ).loc main_arg1)) (m ((c : Thread nD τ).loc main_arg2))) (m ((c : Thread nD τ).loc main_arg0)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t) (rowNo t p) p j
    (RowBlocks.blk0_apply m c t p) (RowBlocks.blk1_apply m c t p) (ParamBlocks.blk2_apply m c t) (ParamBlocks.blk3_apply m c t)
    (ParamBlocks.blk4_apply m c t) (ParamBlocks.blk5_apply m c t) (ParamBlocks.blk6_apply m c t) (ParamBlocks.blk7_apply m c t)

/-! ## The blocks cover the array -/

theorem mem_blk (t : Fin cfg0.N) (i : S65536x64.Idx) :
    i ∈ ((cfg0.win 8).blk t).view.set ↔ ∀ a : Fin 2, win0_8.index t a * S4096x64.size a ≤ (i a).val ∧ (i a).val < win0_8.index t a * S4096x64.size a + S4096x64.size a := by
  show i ∈ ((View.whole main_v56).slice (win0_8.rect t)).set ↔ _
  rw [View.set_slice_whole, Rect.mem_set_unit]
  exact Iff.rfl

/-- Row `r` of the array is in the block of point `r / 4096`. -/
theorem cover (i : S65536x64.Idx) : ∃ t : Fin cfg0.N, (cfg0.win 8).flush t = true ∧ i ∈ ((cfg0.win 8).blk t).view.set := by
  have hi0 : (i 0).val < 65536 := (i 0).isLt
  have hi1 : (i 1).val < 64 := (i 1).isLt
  have hN : cfg0.N = 16 := N_0
  obtain ⟨t, ht⟩ : ∃ t : Fin cfg0.N, t.val = (i 0).val / 4096 := ⟨⟨(i 0).val / 4096, by omega⟩, rfl⟩
  obtain ⟨-, -, -, -, -, -, -, -, -, -, -, -, -, -, -, -, e80, e81⟩ := idx_facts t
  refine ⟨t, flush0_8 t, ?_⟩
  rw [mem_blk]
  intro a
  match a with
  | ⟨0, _⟩ => show win0_8.index t (0 : Fin 2) * 4096 ≤ (i 0).val ∧ (i 0).val < win0_8.index t (0 : Fin 2) * 4096 + 4096; omega
  | ⟨1, _⟩ => show win0_8.index t (1 : Fin 2) * 64 ≤ (i 1).val ∧ (i 1).val < win0_8.index t (1 : Fin 2) * 64 + 64; omega

/-- THE ARRAY after the run is the result function of the argument arrays. -/
theorem final (c : Dev nD) : (dats m 0 c).arrAt 8 cfg0.N = result m c :=
  (dats m 0 c).arrAt_eq_of_cover 8 (result m c) (fun t _ => flushed_eq m c t) cover

/-- After the frame run the propagated features, which the region only reads through input window 0, are as the host
    left them: the reference's stage of the arguments. -/
theorem kept_rst (r : PUnit × MemSt nD τ sig (Elt Ideal)) (h : Pipeline.FramePost cfgs (dats m) 0 (V m) r) (c : Dev nD) :
    r.2.mem ((c : Thread nD τ).loc main_v49) = (Cert.ReferenceIdeal.Read.val_main_v49 (F := Ideal) (m ((c : Thread nD τ).loc main_arg0)) (m ((c : Thread nD τ).loc main_arg1)) (m ((c : Thread nD τ).loc main_arg2))) :=
  ((h c).1 0).trans (((dats m 0 c).arrAt_in 0 rfl _).trans ((A_eq m c 0).trans (EntryRst.rst m c)))

/-! ## The run, read -/

/-- The frame run re-posted: the first result at the result function of the arguments, the second at the propagated
    features, the arguments unchanged. -/
theorem run : θ_run defs (onTc (τ := τ) (main (F := Ideal))) ⟨m, fun _ => 0, ρ⟩ fun r => ∀ c : Dev nD,
      r.2.mem ((c : Thread nD τ).loc main_v56) = result m c
      ∧ r.2.mem ((c : Thread nD τ).loc main_v49) = (Cert.ReferenceIdeal.Read.val_main_v49 (F := Ideal) (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(Cert.KernelIdeal.Value.post8 m r h c).trans (final m c),
      kept_rst m r h c,
      Cert.KernelIdeal.Value.kept_main_arg0 m r h c,
      Cert.KernelIdeal.Value.kept_main_arg1 m r h c,
      Cert.KernelIdeal.Value.kept_main_arg2 m r h c,
      Cert.KernelIdeal.Value.kept_main_arg3 m r h c,
      Cert.KernelIdeal.Value.kept_main_arg4 m r h c,
      Cert.KernelIdeal.Value.kept_main_arg5 m r h c,
      Cert.KernelIdeal.Value.kept_main_arg6 m r h c,
      Cert.KernelIdeal.Value.kept_main_arg7 m r h c,
      Cert.KernelIdeal.Value.kept_main_arg8 m r h c⟩)
    (run_main m ρ)

end Cert.ArrayValue

end
-- ==== Proof.RefRow.lean ====
/-
  The reference's result at one entry.

  The reference runs the same propagation to an array `R` (its stage of the propagated features, kept whole here: both
  programs spell it with the same operations), then LayerNorm, the two-layer feed-forward and the two residuals over the
  whole `[65536, 64]` array. Read at `(n, j)`, the result depends on row `n` of `R` and of the input features only and is
  the feed-forward row function of that row: each host sum over the last axis is the sum over the row, each
  `dot_general` the sum over the contracted index, each broadcast reads the row's statistic or the parameter's entry,
  and the transposed weights read the weight at the swapped index.
-/
import proofs.«141005_j20667382628955_1_alg».proof.Proof.Gen.ReferenceIdeal.Read
import proofs.«141005_j20667382628955_1_alg».proof.Proof.RowFfn

noncomputable section

open scoped BigOperators

namespace Cert.RefRow

open Idealize.ShloMosaic Idealize.ShloMosaic.ValueIdx
open Cert.ReferenceIdeal Cert.ReferenceIdeal.Gen Cert.ReferenceIdeal.Read Cert.RowFfn

variable (x0 : (⟨S65536x64, .f32⟩ : BufTy).Contents (Elt Ideal)) (x1 x2 : (⟨S1048576, .i32⟩ : BufTy).Contents (Elt Ideal))

/-- Row `n` of the propagated features, as the reference computes them. -/
abbrev rowR (n : Fin 65536) : Fin 64 → EReal := fun l => val_main_v49 (F := Ideal) x0 x1 x2 (ix2 n l)

/-- A parameter vector by its one coordinate. -/
abbrev vec (v : (⟨S64, .f32⟩ : BufTy).Contents (Elt Ideal)) : Fin 64 → EReal := fun l => v (ix1 l)

/-- A weight matrix read at the swapped index: what the products contract after the transposition. -/
abbrev swapped (w : (⟨S64x64, .f32⟩ : BufTy).Contents (Elt Ideal)) : Fin 64 → Fin 64 → EReal := fun a b => w (ix2 b a)

/-! ## The row statistics -/

theorem sum_at (i : S65536.Idx) :
    val_main_v50 (F := Ideal) x0 x1 x2 i = ∑ l : Fin 64, rowR x0 x1 x2 (i 0) l := by
  rw [val_main_v50_apply]
  show Ideal.ofBits .f32 0x00000000#32 + _ = _
  rw [Ideal.ofBits_zero_f32, zero_add]
  exact Finset.sum_congr rfl fun k _ => congrArg (val_main_v49 (F := Ideal) x0 x1 x2)
    (funext fun a => Fin.ext (by match a with | ⟨0, _⟩ => rfl | ⟨1, _⟩ => rfl))

theorem mean_at (i : S65536x1.Idx) :
    val_main_v53 (F := Ideal) x0 x1 x2 i = mean (rowR x0 x1 x2 (i 0)) := by
  rw [val_main_v53_apply, val_main_v51_apply, sum_at, val_main_v52_apply]
  rfl

theorem centred_at (n : Fin 65536) (l : Fin 64) :
    val_main_v55 (F := Ideal) x0 x1 x2 (ix2 n l) = centred (rowR x0 x1 x2 n) l := by
  rw [val_main_v55_apply, val_main_v54_apply, mean_at]
  rfl

theorem sqsum_at (i : S65536.Idx) :
    val_main_v57 (F := Ideal) x0 x1 x2 i
      = ∑ l : Fin 64, centred (rowR x0 x1 x2 (i 0)) l * centred (rowR x0 x1 x2 (i 0)) l := by
  obtain ⟨n, rfl⟩ : ∃ n : Fin 65536, i = ix1 n := ⟨i 0, eq_ix1 i⟩
  rw [val_main_v57_apply]
  show Ideal.ofBits .f32 0x00000000#32 + _ = _
  rw [Ideal.ofBits_zero_f32, zero_add]
  refine Finset.sum_congr rfl fun k _ => ?_
  have e : idx_main_v57 (ix1 n) k = ix2 n k :=
    funext fun a => Fin.ext (by match a with | ⟨0, _⟩ => rfl | ⟨1, _⟩ => rfl)
  rw [e, val_main_v56_apply]
  exact congrArg₂ (· * ·) (centred_at x0 x1 x2 n k) (centred_at x0 x1 x2 n k)

theorem variance_at (i : S65536x1.Idx) :
    val_main_v60 (F := Ideal) x0 x1 x2 i = variance (rowR x0 x1 x2 (i 0)) := by
  rw [val_main_v60_apply, val_main_v58_apply, sqsum_at, val_main_v59_apply]
  rfl

theorem centred_at' (n : Fin 65536) (l : Fin 64) :
    val_main_v62 (F := Ideal) x0 x1 x2 (ix2 n l) = centred (rowR x0 x1 x2 n) l := by
  rw [val_main_v62_apply, val_main_v61_apply, mean_at]
  rfl

theorem scale_at (i : S65536x1.Idx) :
    val_main_v65 (F := Ideal) x0 x1 x2 i
      = Ideal.rsqrt (variance (rowR x0 x1 x2 (i 0)) + Ideal.ofBits .f32 0x3727C5AC#32) := by
  rw [val_main_v65_apply, val_main_v64_apply, variance_at, val_main_v63_apply]
  rfl

/-! ## LayerNorm, the hidden layer, the result -/

variable (x3 x5 : (⟨S64x64, .f32⟩ : BufTy).Contents (Elt Ideal)) (x4 x6 x7 x8 : (⟨S64, .f32⟩ : BufTy).Contents (Elt Ideal))

theorem normed_at (n : Fin 65536) (l : Fin 64) :
    val_main_v73 (F := Ideal) x0 x1 x2 x7 x8 (ix2 n l) = normed (rowR x0 x1 x2 n) (vec x7) (vec x8) l := by
  have e7 : idx_main_v68 (idx_main_v69 (ix2 n l)) = ix1 l := funext fun a => Fin.ext (by match a with | ⟨0, _⟩ => rfl)
  have e8 : idx_main_v71 (idx_main_v72 (ix2 n l)) = ix1 l := funext fun a => Fin.ext (by match a with | ⟨0, _⟩ => rfl)
  rw [val_main_v73_apply, val_main_v70_apply, val_main_v67_apply, centred_at', val_main_v66_apply, scale_at,
    val_main_v69_apply, val_main_v68_apply, e7, val_main_v72_apply, val_main_v71_apply, e8]
  rfl

theorem w1_at (l k : Fin 64) : val_main_v74 (F := Ideal) x3 (ix2 l k) = swapped x3 l k := by
  rw [val_main_v74_apply]
  exact congrArg x3 (funext fun a => Fin.ext (by match a with | ⟨0, _⟩ => rfl | ⟨1, _⟩ => rfl))

theorem w2_at (k j : Fin 64) : val_main_v80 (F := Ideal) x5 (ix2 k j) = swapped x5 k j := by
  rw [val_main_v80_apply]
  exact congrArg x5 (funext fun a => Fin.ext (by match a with | ⟨0, _⟩ => rfl | ⟨1, _⟩ => rfl))

theorem hidden_at (n : Fin 65536) (k : Fin 64) :
    val_main_v79 (F := Ideal) x0 x1 x2 x3 x4 x7 x8 (ix2 n k)
      = RowFfn.hidden (rowR x0 x1 x2 n) (vec x7) (vec x8) (vec x4) (swapped x3) k := by
  have e4 : idx_main_v76 (idx_main_v77 (ix2 n k)) = ix1 k := funext fun a => Fin.ext (by match a with | ⟨0, _⟩ => rfl)
  have hs : ∀ l : Fin 64,
      val_main_v73 (F := Ideal) x0 x1 x2 x7 x8 (lidx_main_v75 (ix2 n k) l) * val_main_v74 (F := Ideal) x3 (ridx_main_v75 (ix2 n k) l)
        = normed (rowR x0 x1 x2 n) (vec x7) (vec x8) l * swapped x3 l k := fun l => by
    have el : lidx_main_v75 (ix2 n k) l = ix2 n l := funext fun a => Fin.ext (by match a with | ⟨0, _⟩ => rfl | ⟨1, _⟩ => rfl)
    have er : ridx_main_v75 (ix2 n k) l = ix2 l k := funext fun a => Fin.ext (by match a with | ⟨0, _⟩ => rfl | ⟨1, _⟩ => rfl)
    rw [el, er, normed_at, w1_at]
  rw [val_main_v79_apply, val_main_v78_apply, val_main_v75_apply, val_main_v77_apply, val_main_v76_apply, e4,
    val_main_call0_v0_apply]
  simp only [hs]
  rfl

/-- **The reference's first result at `(n, j)`** is the feed-forward row function of row `n` of the propagated features and
    of the input features, with the parameters read by their coordinates and the weights at the swapped index. -/
theorem result_at (n : Fin 65536) (j : Fin 64) :
    val_main_v86 (F := Ideal) x0 x1 x2 x3 x4 x5 x6 x7 x8 (ix2 n j)
      = out (rowR x0 x1 x2 n) (fun l => x0 (ix2 n l)) (vec x7) (vec x8) (vec x4) (vec x6) (swapped x3) (swapped x5) j := by
  have e6 : idx_main_v82 (idx_main_v83 (ix2 n j)) = ix1 j := funext fun a => Fin.ext (by match a with | ⟨0, _⟩ => rfl)
  have hs : ∀ k : Fin 64,
      val_main_v79 (F := Ideal) x0 x1 x2 x3 x4 x7 x8 (lidx_main_v81 (ix2 n j) k) * val_main_v80 (F := Ideal) x5 (ridx_main_v81 (ix2 n j) k)
        = RowFfn.hidden (rowR x0 x1 x2 n) (vec x7) (vec x8) (vec x4) (swapped x3) k * swapped x5 k j := fun k => by
    have el : lidx_main_v81 (ix2 n j) k = ix2 n k := funext fun a => Fin.ext (by match a with | ⟨0, _⟩ => rfl | ⟨1, _⟩ => rfl)
    have er : ridx_main_v81 (ix2 n j) k = ix2 k j := funext fun a => Fin.ext (by match a with | ⟨0, _⟩ => rfl | ⟨1, _⟩ => rfl)
    rw [el, er, hidden_at, w2_at]
  rw [val_main_v86_apply, val_main_v85_apply, val_main_v84_apply, val_main_v81_apply, val_main_v83_apply, val_main_v82_apply, e6]
  simp only [hs]
  rfl

end Cert.RefRow

end
-- ==== Proof.RefWhole.lean ====
/-
  The reference's first result is the whole-array function of its arguments and of its own propagated features.
-/
import proofs.«141005_j20667382628955_1_alg».proof.Proof.RefRow
import proofs.«141005_j20667382628955_1_alg».proof.Proof.WholeResult

noncomputable section

namespace Cert.RefWhole

open Idealize.ShloMosaic Idealize.ShloMosaic.ValueIdx
open Cert.ReferenceIdeal Cert.ReferenceIdeal.Gen Cert.ReferenceIdeal.Read

/-- Entry by entry, the reference's result stage is the feed-forward row function of the row of its propagated features. -/
theorem result_eq (x0 : (⟨S65536x64, .f32⟩ : BufTy).Contents (Elt Ideal)) (x1 x2 : (⟨S1048576, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 x7 x8 : (⟨S64, .f32⟩ : BufTy).Contents (Elt Ideal)) :
    val_main_v86 (F := Ideal) x0 x1 x2 x3 x4 x5 x6 x7 x8
      = Cert.WholeResult.whole (val_main_v49 (F := Ideal) x0 x1 x2) x0 x3 x5 x4 x6 x7 x8 := by
  funext i
  obtain ⟨n, j, rfl⟩ : ∃ (n : Fin 65536) (j : Fin 64), i = ix2 n j := ⟨i 0, i 1, eq_ix2 i⟩
  exact Cert.RefRow.result_at x0 x1 x2 x3 x5 x4 x6 x7 x8 n j

end Cert.RefWhole

end
-- ==== Proof.lean ====
/-
  A graph-convolution block: three hops of symmetric-normalised propagation (gather along the edges, scatter-add into the
  destination nodes, scaling by the inverse square-root degrees), then a position-wise feed-forward block with LayerNorm,
  two 64 × 64 matrix products, a ReLU and two residual additions. The results are the block's output and the propagated
  features.

  The kernel and the reference run the propagation with the same host operations, so the propagated features are one
  array `R` of the arguments on both sides. The kernel computes the feed-forward block in one tiled region, 4096 rows per
  grid point, with the lane sums of LayerNorm, the matrix unit's products into a zero accumulator and changes of float
  format; the reference computes it over the whole `[65536, 64]` array with host sums and `dot_general`. On the extended
  reals both are, at entry `(n, j)`, the same row function (Proof/RowFfn.lean) of row `n` of `R` and of the input features:
  a lane sum and a host sum of a row are the same finite sum, a matrix product into zero and a `dot_general` the same sum
  over the contracted index, a format change the identity, and both sides contract the transposed weights. No law that
  needs finiteness is used, so the precondition is never opened.

  Proof/KernelRow.lean reads the kernel body's stored value at an entry; Proof/EntryArrays.lean the arrays the region
  finds; Proof/ArrayValue.lean assembles the 16 written blocks into the whole array; Proof/RefRow.lean and
  Proof/RefWhole.lean read the reference's result at an entry. The ideal pass rewrote nothing, so the kernel's
  idealization is the program's own text read on the extended reals.
-/
import proofs.«141005_j20667382628955_1_alg».proof.Defs
import proofs.«141005_j20667382628955_1_alg».proof.Proof.Gen.Kernel
import proofs.«141005_j20667382628955_1_alg».proof.Proof.Gen.Kernel.Skeleton
import proofs.«141005_j20667382628955_1_alg».proof.Proof.Gen.Kernel.Launch
import proofs.«141005_j20667382628955_1_alg».proof.Proof.Gen.Kernel.Points
import proofs.«141005_j20667382628955_1_alg».proof.Proof.Gen.Kernel.Frame
import proofs.«141005_j20667382628955_1_alg».proof.Proof.Gen.KernelIdeal
import proofs.«141005_j20667382628955_1_alg».proof.Proof.Gen.KernelIdeal.Skeleton
import proofs.«141005_j20667382628955_1_alg».proof.Proof.Gen.KernelIdeal.Launch
import proofs.«141005_j20667382628955_1_alg».proof.Proof.Gen.KernelIdeal.Points
import proofs.«141005_j20667382628955_1_alg».proof.Proof.Gen.KernelIdeal.Frame
import proofs.«141005_j20667382628955_1_alg».proof.Proof.Gen.ReferenceIdeal
import proofs.«141005_j20667382628955_1_alg».proof.Proof.Gen.Pre_finite_inputs
import proofs.«141005_j20667382628955_1_alg».proof.Proof.Gen.KernelIdeal.Value
import proofs.«141005_j20667382628955_1_alg».proof.Proof.Gen.ReferenceIdeal.Run
import proofs.«141005_j20667382628955_1_alg».proof.Proof.Gen.ReferenceIdeal.Read
import proofs.«141005_j20667382628955_1_alg».proof.Proof.ArrayValue
import proofs.«141005_j20667382628955_1_alg».proof.Proof.RefWhole
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a sequence of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- On the extended reals, from memories that agree on the arguments, the kernel's result array ends at the row-wise
    feed-forward function of the propagated features and the input features (the sixteen written blocks, assembled) and
    the reference's at the same function (its stages read entry by entry); the second result is the propagated features
    on both sides. -/
theorem algebraic : Cert.algebraic_KernelIdeal_ReferenceIdeal := by
  intro m ρ m' ρ' _ hagree
  refine ⟨fun c => Cert.ArrayValue.result m c, _, Cert.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v86_eq, Cert.RefWhole.result_eq]
    obtain ⟨h0, h1, h2, h3, h4, h5, h6, h7, h8⟩ := hagree c
    rw [h0, h1, h2, h3, h4, h5, h6, h7, h8]
    rfl
  · rw [Cert.ReferenceIdeal.Read.val_main_v49_eq]
    obtain ⟨h0, h1, h2, -⟩ := hagree c
    rw [h0, h1, h2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
